-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S10000x256 .f32) (main_arg1 : FVec F S10000x10000 .f32) (main_arg2 : FVec F S256x256 .f32) (main_arg3 : FVec F S256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S1x256 : Shape := ⟨2, ![1, 256]⟩
abbrev S400x10000 : Shape := ⟨2, ![400, 10000]⟩
abbrev S400x256 : Shape := ⟨2, ![400, 256]⟩
abbrev S400 : Shape := ⟨1, ![400]⟩
abbrev S400x1 : Shape := ⟨2, ![400, 1]⟩

abbrev nBuf : Space → Nat
  | .hbm => 7
  | .vmem => 7
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S1x256, .f32⟩
  | .hbm, ⟨6, _⟩ => ⟨S10000x256, .f32⟩
  | .local _ .vmem, ⟨0, _⟩ => ⟨S10000x256, .f32⟩
  | .local _ .vmem, ⟨1, _⟩ => ⟨S256x256, .f32⟩
  | .local _ .vmem, ⟨2, _⟩ => ⟨S1x256, .f32⟩
  | .local _ .vmem, ⟨3, _⟩ => ⟨S400x10000, .f32⟩
  | .local _ .vmem, ⟨4, _⟩ => ⟨S400x10000, .f32⟩
  | .local _ .vmem, ⟨5, _⟩ => ⟨S400x256, .f32⟩
  | .local _ .vmem, ⟨6, _⟩ => ⟨S400x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S400x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S256x256_S256x256_1_0 : S256x256.Transposes [1, 0] S256x256
  shapeCasts_S256_S1x256 : S256.ShapeCasts S1x256
  inb_S400x10000_S400x10000_0_0 : ∀ a, (![0, 0] : Fin 2 → Nat) a + S400x10000.size a ≤ S400x10000.size a
  h_S400x10000 : 0 < S400x10000.numel
  inb_S10000x256_S10000x256_0_0 : ∀ a, (![0, 0] : Fin 2 → Nat) a + S10000x256.size a ≤ S10000x256.size a
  h_S10000x256 : 0 < S10000x256.numel
  reduces_S400x10000_S400 : S400x10000.Reduces [1] S400
  shapeCasts_S400_S400x1 : S400.ShapeCasts S400x1
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S400x1_S400x256 : S400x1.Broadcasts S400x256
  broadcasts_S1x256_S400x256 : S1x256.Broadcasts S400x256
  inb_S400x256_S400x256_0_0 : ∀ a, (![0, 0] : Fin 2 → Nat) a + S400x256.size a ≤ S400x256.size a
  h_S400x256 : 0 < S400x256.numel
  dot_S400x10000_S10000x256_S400x256_1_0_0_1_n_n_wf : DotDims.WF S400x10000 S10000x256 S400x256 [1] [0] [0] [1] [] []
  dot_S400x256_S256x256_S400x256_1_0_0_1_n_n_wf : DotDims.WF S400x256 S256x256 S400x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S10000x256.size a
  hwx0_0 : ∀ i : grid0.Coords, EltTy.bits .f32 = 32 ∨ (Rect.block (s := S10000x256) S10000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x10000.size a ≤ S10000x10000.size a
  hwx0_3 : ∀ i : grid0.Coords, EltTy.bits .f32 = 32 ∨ (Rect.block (s := S10000x10000) S400x10000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x256.size a ≤ S10000x256.size a
  hwx0_4 : ∀ i : grid0.Coords, EltTy.bits .f32 = 32 ∨ (Rect.block (s := S10000x256) S400x256.size (cc0_transform_4 i) (hinb0_4 i)).WholeWords (EltTy.packing .f32)

variable [Facts₀]

def dot_S400x10000_S10000x256_S400x256_1_0_0_1_n_n : DotDims S400x10000 S10000x256 S400x256 where
  lhsContracting := [1]
  rhsContracting := [0]
  lhsNonContracting := [0]
  rhsNonContracting := [1]
  lhsBatch := []
  rhsBatch := []
  wf := dot_S400x10000_S10000x256_S400x256_1_0_0_1_n_n_wf
def dot_S400x256_S256x256_S400x256_1_0_0_1_n_n : DotDims S400x256 S256x256 S400x256 where
  lhsContracting := [1]
  rhsContracting := [0]
  lhsNonContracting := [0]
  rhsNonContracting := [1]
  lhsBatch := []
  rhsBatch := []
  wf := dot_S400x256_S256x256_S400x256_1_0_0_1_n_n_wf

abbrev win0_0 : Pipeline.Window sig grid0 :=
  Pipeline.Window.ofSpec (Memref.whole main_arg0) S10000x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S400x10000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S400x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S1x256 : Shape := ⟨2, ![1, 256]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S10000x256, .f32⟩
  | .hbm, ⟨6, _⟩ => ⟨S1x256, .f32⟩
  | .hbm, ⟨7, _⟩ => ⟨S10000x256, .f32⟩
  | .hbm, ⟨8, _⟩ => ⟨S10000x256, .f32⟩
  | .hbm, ⟨9, _⟩ => ⟨S10000x256, .f32⟩
  | .hbm, ⟨10, _⟩ => ⟨S_, .f32⟩
  | .hbm, ⟨11, _⟩ => ⟨S10000x256, .f32⟩
  | .hbm, ⟨12, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_cst : Ref sig .tc := ⟨.hbm, 10, rfl⟩
abbrev main_call0_v0 : Ref sig .tc := ⟨.hbm, 11, rfl⟩
abbrev main_v6 : Ref sig .tc := ⟨.hbm, 12, rfl⟩

abbrev nD : Nat := 1
abbrev τ : Topo := Topo.v7x

variable {F : FTy → Type} [FloatOps F]

class Facts₀ : Prop where
  transposes_S256x256_S256x256_1_0 : S256x256.Transposes [1, 0] S256x256
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  dot_S10000x256_S256x256_S10000x256_1_0_0_1_n_n_wf : DotDims.WF S10000x256 S256x256 S10000x256 [1] [0] [0] [1] [] []
  dot_S10000x10000_S10000x256_S10000x256_1_0_0_1_n_n_wf : DotDims.WF S10000x10000 S10000x256 S10000x256 [1] [0] [0] [1] [] []

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf

class Facts : Prop extends Facts₀ where

variable [Facts]
-- ==== Proof.Reassoc.lean ====
/-
  One graph-convolution layer, written two ways, and the law that joins them.

  With A the dense adjacency (rows p, columns n), X the node features (rows n, columns k), W the layer's
  weight (rows q, columns k) and β its bias, the layer's output at row p and column q is

      max (∑ n, A p n · ((∑ k, X n k · W q k) + β q)) 0            (project every node, then aggregate),

  and, the matrix products reassociated,

      max ((∑ k, (∑ n, A p n · X n k) · W q k) + (∑ n, A p n) · β q) 0     (aggregate, then project once per row).

  Over the reals the two agree: distribute A p n over the inner sum, exchange the two finite sums, and collect the
  bias term, which is multiplied by the row sum of A. On the extended reals products do not distribute over sums at
  the infinities, so the law is stated for entries that are real numbers.
-/
import Idealize.ShloMosaic.PureOps.Ideal
import Idealize.ShloMosaic.Lib.ValueIdx

noncomputable section

open scoped BigOperators

namespace Cert.GraphConv

open Idealize.ShloMosaic Idealize.ShloMosaic.ValueIdx

/-! ## The law, over the reals and then over real-valued extended reals -/

/-- Aggregating after projecting is projecting after aggregating, plus the bias times the row sum. -/
theorem reassoc_real {N K : Type} [Fintype N] [Fintype K] (a : N → ℝ) (x : N → K → ℝ) (w : K → ℝ) (β : ℝ) :
    (∑ k, (∑ n, a n * x n k) * w k) + (∑ n, a n) * β = ∑ n, a n * ((∑ k, x n k * w k) + β) := by
  simp only [Finset.sum_mul, Finset.mul_sum, mul_add, Finset.sum_add_distrib]
  rw [Finset.sum_comm]
  congr 1
  exact Finset.sum_congr rfl fun n _ => Finset.sum_congr rfl fun k _ => by ring

/-- The coercion of the reals into the extended reals goes through a finite sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The same law for extended reals that are real numbers. -/
theorem reassoc_ereal {N K : Type} [Fintype N] [Fintype K] (a : N → EReal) (x : N → K → EReal) (w : K → EReal) (β : EReal)
    (a' : N → ℝ) (x' : N → K → ℝ) (w' : K → ℝ) (β' : ℝ)
    (ha : ∀ n, a n = (a' n : EReal)) (hx : ∀ n k, x n k = (x' n k : EReal)) (hw : ∀ k, w k = (w' k : EReal)) (hβ : β = (β' : EReal)) :
    (∑ k, (∑ n, a n * x n k) * w k) + (∑ n, a n) * β = ∑ n, a n * ((∑ k, x n k * w k) + β) := by
  obtain rfl : a = fun n => (a' n : EReal) := funext ha
  obtain rfl : x = fun n k => (x' n k : EReal) := funext fun n => funext (hx n)
  obtain rfl : w = fun k => (w' k : EReal) := funext hw
  subst hβ
  have h := congrArg (fun r : ℝ => (r : EReal)) (reassoc_real a' x' w' β')
  simpa only [EReal.coe_add, coe_sum, EReal.coe_mul] using h

/-- An extended real that is neither infinity is a real number. -/
theorem exists_real_of_finite {v : EReal} (h₁ : v ≠ ⊤) (h₂ : v ≠ ⊥) : ∃ r : ℝ, v = (r : EReal) :=
  ⟨v.toReal, (EReal.coe_toReal h₁ h₂).symm⟩

/-! ## The layer's output as a function of the four argument arrays -/

abbrev SX : Shape := ⟨2, ![10000, 256]⟩
abbrev SA : Shape := ⟨2, ![10000, 10000]⟩
abbrev SW : Shape := ⟨2, ![256, 256]⟩
abbrev SB : Shape := ⟨1, ![256]⟩

/-- Project every node's features and add the bias, then aggregate over the adjacency's row; clamp below at zero. -/
def projectThenAggregate (X : SX.Idx → EReal) (A : SA.Idx → EReal) (W : SW.Idx → EReal) (β : SB.Idx → EReal)
    (p : Fin 10000) (q : Fin 256) : EReal :=
  max (∑ n : Fin 10000, A (ix2 p n) * ((∑ k : Fin 256, X (ix2 n k) * W (ix2 q k)) + β (ix1 q))) 0

/-- Aggregate the features over the adjacency's row, project the aggregate once, add the bias times the row sum; clamp
    below at zero. -/
def aggregateThenProject (X : SX.Idx → EReal) (A : SA.Idx → EReal) (W : SW.Idx → EReal) (β : SB.Idx → EReal)
    (p : Fin 10000) (q : Fin 256) : EReal :=
  max ((∑ k : Fin 256, (∑ n : Fin 10000, A (ix2 p n) * X (ix2 n k)) * W (ix2 q k)) + (∑ n : Fin 10000, A (ix2 p n)) * β (ix1 q)) 0

/-- Every entry of an array is a real number. -/
def AllReal {s : Shape} (v : s.Idx → EReal) : Prop := ∀ i, v i ≠ ⊤ ∧ v i ≠ ⊥

/-- On arrays of real numbers the two readings of the layer agree at every row and column. -/
theorem aggregateThenProject_eq (X : SX.Idx → EReal) (A : SA.Idx → EReal) (W : SW.Idx → EReal) (β : SB.Idx → EReal)
    (hX : AllReal X) (hA : AllReal A) (hW : AllReal W) (hβ : AllReal β) (p : Fin 10000) (q : Fin 256) :
    aggregateThenProject X A W β p q = projectThenAggregate X A W β p q := by
  unfold aggregateThenProject projectThenAggregate
  refine congrArg (max · 0) ?_
  choose a' ha using fun n : Fin 10000 => exists_real_of_finite (hA (ix2 p n)).1 (hA (ix2 p n)).2
  choose x' hx using fun (n : Fin 10000) (k : Fin 256) => exists_real_of_finite (hX (ix2 n k)).1 (hX (ix2 n k)).2
  choose w' hw using fun k : Fin 256 => exists_real_of_finite (hW (ix2 q k)).1 (hW (ix2 q k)).2
  obtain ⟨β', hb⟩ := exists_real_of_finite (hβ (ix1 q)).1 (hβ (ix1 q)).2
  exact reassoc_ereal (fun n => A (ix2 p n)) (fun n k => X (ix2 n k)) (fun k => W (ix2 q k)) (β (ix1 q)) a' x' w' β' ha hx hw hb

end Cert.GraphConv

end
-- ==== Proof.RefLayer.lean ====
/-
  The reference program read at a row and a column. Its stages are: the weight transposed; the features times the
  transposed weight; the bias laid along every row and added; the adjacency times that sum; the maximum with zero.
  Read index by index that is "project every node, then aggregate": at row p and column q the adjacency's row p
  against, for every node n, the projected feature (∑ k, X n k · W q k) + β q.
-/
import proofs.«157679_g26826365731398_cont_9to1_2211_16_alg».proof.Proof.Gen.ReferenceIdeal.Read
import proofs.«157679_g26826365731398_cont_9to1_2211_16_alg».proof.Proof.Reassoc
import Idealize.ShloMosaic.PureOps.Ideal.Laws

noncomputable section

open scoped BigOperators

namespace Cert.GraphConv.Ref

open Idealize.ShloMosaic Idealize.ShloMosaic.ValueIdx Cert.ReferenceIdeal Cert.ReferenceIdeal.Read Cert.GraphConv

/-- The reference's result array, as a function of its four argument arrays, is the layer read as
    "project, then aggregate" at every index. -/
theorem result_apply (X : SX.Idx → EReal) (A : SA.Idx → EReal) (W : SW.Idx → EReal) (β : SB.Idx → EReal)
    (p : Fin 10000) (q : Fin 256) :
    val_main_v6 (F := Ideal) X A W β (ix2 p q) = projectThenAggregate X A W β p q := by
  have eA : ∀ n : Fin 10000, lidx_main_v5 (ix2 p q) n = ix2 p n := fun n =>
    funext fun a => match a with | ⟨0, _⟩ => rfl | ⟨1, _⟩ => rfl
  have eR : ∀ n : Fin 10000, ridx_main_v5 (ix2 p q) n = ix2 n q := fun n =>
    funext fun a => match a with | ⟨0, _⟩ => rfl | ⟨1, _⟩ => rfl
  have eX : ∀ (n : Fin 10000) (k : Fin 256), lidx_main_v1 (ix2 n q) k = ix2 n k := fun n k =>
    funext fun a => match a with | ⟨0, _⟩ => rfl | ⟨1, _⟩ => rfl
  have eW : ∀ (n : Fin 10000) (k : Fin 256), idx_main_v0 (ridx_main_v1 (ix2 n q) k) = ix2 q k := fun n k =>
    funext fun a => match a with | ⟨0, _⟩ => rfl | ⟨1, _⟩ => rfl
  have eB : ∀ n : Fin 10000, idx_main_v2 (idx_main_v3 (ix2 n q)) = ix1 q := fun n =>
    funext fun a => match a with | ⟨0, _⟩ => rfl
  rw [val_main_v6_apply, val_main_v5_apply]
  simp only [eA, eR, val_main_v4_apply, val_main_v1_apply, val_main_v3_apply, val_main_v2_apply, val_main_v0_apply,
    val_main_call0_v0_apply, val_main_call0_cst_apply, eX, eW, eB]
  show max _ (Ideal.ofBits .f32 0x00000000#32) = _
  rw [Ideal.ofBits_zero_f32]
  rfl

end Cert.GraphConv.Ref

end
-- ==== Proof.RealInputs.lean ====
/-
  The precondition says every float input is finite: for each argument array, the test "|v| < +inf" holds at every
  entry, and the four tests are conjoined. Read back, every entry of every argument is a real number: an extended real
  whose absolute value max v (-v) lies strictly below the top element is neither infinity.
-/
import proofs.«157679_g26826365731398_cont_9to1_2211_16_alg».proof.Proof.Gen.Pre_finite_inputs
import proofs.«157679_g26826365731398_cont_9to1_2211_16_alg».proof.Proof.Reassoc
import Idealize.ShloMosaic.Lib.ReduceAll
import Idealize.ShloMosaic.Lib.Pipeline.Value
import Idealize.ShloMosaic.Lib.ValueIdx

noncomputable section

namespace Cert.GraphConv.Pre

open Idealize.ShloMosaic Idealize.ShloMosaic.ValueIdx Cert.Pre_finite_inputs Cert.GraphConv

instance : Subsingleton S_.Idx := ⟨fun a b => funext fun d => d.elim0⟩

/-- The pattern the tests compare against denotes the top element. -/
theorem inf_pattern : Ideal.ofBits .f32 0x7F800000#32 = ⊤ := by simp [Ideal.ofBits, Ideal.ieee]

/-- An extended real whose absolute value is strictly below the top element is a real number. -/
theorem real_of_abs_lt_top (v : EReal) (h : Ideal.cmp .olt (max v (-v)) ⊤ = 1#1) : v ≠ ⊤ ∧ v ≠ ⊥ := by
  induction v using EReal.rec with
  | bot => simp [Ideal.cmp] at h
  | top => simp [Ideal.cmp] at h
  | coe r => exact ⟨EReal.coe_ne_top r, EReal.coe_ne_bot r⟩

/-- One array's test at one entry. -/
theorem real_of_test {s : Shape} (v : FVec Ideal s .f32) (hb : S_.BroadcastsInDim s (![] : Fin 0 → Fin s.rank)) (i : s.Idx)
    (h : cmpf .olt (Host.absf v) (broadcastInDim s ![] hb (constant (F := Ideal) S_ .f32 0x7F800000#32)) i = 1#1) :
    v i ≠ ⊤ ∧ v i ≠ ⊥ := by
  have e : broadcastInDim s ![] hb (constant (F := Ideal) S_ .f32 0x7F800000#32) i = Ideal.ofBits .f32 0x7F800000#32 :=
    broadcastInDim_apply _ hb _ i ix0 (fun a => a.elim0)
  refine real_of_abs_lt_top (v i) ?_
  rw [← inf_pattern, ← e]
  exact h

/-- Under the precondition every entry of each of the four argument arrays is a real number. -/
theorem allReal_of_pre (X : FVec Ideal S10000x256 .f32) (A : FVec Ideal S10000x10000 .f32) (W : FVec Ideal S256x256 .f32)
    (β : FVec Ideal S256 .f32) (h : fn (F := Ideal) X A W β = fun _ => 1#1) :
    AllReal X ∧ AllReal A ∧ AllReal W ∧ AllReal β := by
  have h0 := congrFun h ix0
  dsimp only [fn, fn_part1] at h0
  obtain ⟨h012, h3⟩ := IntOp.andi_eq_one.1 h0
  obtain ⟨h01, h2⟩ := IntOp.andi_eq_one.1 h012
  obtain ⟨hx, ha⟩ := IntOp.andi_eq_one.1 h01
  exact ⟨fun i => real_of_test X _ i (Host.reduce_andi_all _ _ _ _ ix0 hx i),
    fun i => real_of_test A _ i (Host.reduce_andi_all _ _ _ _ ix0 ha i),
    fun i => real_of_test W _ i (Host.reduce_andi_all _ _ _ _ ix0 h2 i),
    fun i => real_of_test β _ i (Host.reduce_andi_all _ _ _ _ ix0 h3 i)⟩

end Cert.GraphConv.Pre

end
-- ==== Proof.BodyValue.lean ====
/-
  What the kernel body stores, read at one row and one column of the block it is called on.

  The body is given a block of 400 rows of the adjacency (all 10000 columns), the whole feature array, the weight
  already transposed, and the bias as one row. It multiplies the adjacency block by the features, multiplies that by
  the transposed weight, adds the block's row sums times the bias row, and clamps below at zero. Read at row p and
  column q of the block that is

      max ((∑ k, (∑ n, a p n · x n k) · wt k q) + (∑ n, a p n) · b 0 q) 0:

  each matrix product into a zero accumulator is the plain sum over the contracted axis, the lane reduction with the
  neutral accumulator is the plain row sum, and the cast to a column and the two broadcasts only move indices.
-/
import proofs.«157679_g26826365731398_cont_9to1_2211_16_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.GraphConv.Body

open Idealize.ShloMosaic Idealize.ShloMosaic.ValueIdx Cert.KernelIdeal Cert.KernelIdeal.Gen

/-! ## The two matrix products -/

theorem agg_lhs_0 (i : S400x256.Idx) (c : dot_S400x10000_S10000x256_S400x256_1_0_0_1_n_n.contr.Idx) :
    (dot_S400x10000_S10000x256_S400x256_1_0_0_1_n_n.lhsIdx i c 0).val = (i 0).val := by
  unfold DotDims.lhsIdx
  rw [dif_neg (show ¬(0 : Fin S400x10000.rank) ∈ dot_S400x10000_S10000x256_S400x256_1_0_0_1_n_n.lhsBatch by decide),
    dif_pos (show (0 : Fin S400x10000.rank) ∈ dot_S400x10000_S10000x256_S400x256_1_0_0_1_n_n.lhsNonContracting by decide)]
  rfl
theorem agg_rhs_1 (i : S400x256.Idx) (c : dot_S400x10000_S10000x256_S400x256_1_0_0_1_n_n.contr.Idx) :
    (dot_S400x10000_S10000x256_S400x256_1_0_0_1_n_n.rhsIdx i c 1).val = (i 1).val := by
  unfold DotDims.rhsIdx
  rw [dif_neg (show ¬(1 : Fin S10000x256.rank) ∈ dot_S400x10000_S10000x256_S400x256_1_0_0_1_n_n.rhsBatch by decide),
    dif_pos (show (1 : Fin S10000x256.rank) ∈ dot_S400x10000_S10000x256_S400x256_1_0_0_1_n_n.rhsNonContracting by decide)]
  rfl

/-- The adjacency block times the features, into a zero accumulator: at row p and feature k the sum over the nodes. -/
theorem aggregate_apply (a : FVec Ideal S400x10000 .f32) (x : FVec Ideal S10000x256 .f32) (p : Fin 400) (k : Fin 256) :
    matmul dot_S400x10000_S10000x256_S400x256_1_0_0_1_n_n none a x (constant S400x256 .f32 0x00000000#32) (ix2 p k)
      = ∑ n : Fin 10000, a (ix2 p n) * x (ix2 n k) := by
  simp only [matmul]
  rw [Ideal.matmul_constant_zero_apply,
    ← Equiv.sum_comp (contrEquiv1 dot_S400x10000_S10000x256_S400x256_1_0_0_1_n_n 10000 rfl rfl).symm]
  refine Finset.sum_congr rfl fun n _ => ?_
  have hn := contrEquiv1_symm_val dot_S400x10000_S10000x256_S400x256_1_0_0_1_n_n 10000 rfl rfl n
  have el : dot_S400x10000_S10000x256_S400x256_1_0_0_1_n_n.lhsIdx (ix2 p k)
      ((contrEquiv1 dot_S400x10000_S10000x256_S400x256_1_0_0_1_n_n 10000 rfl rfl).symm n) = ix2 p n :=
    funext fun d => Fin.ext (by
      match d with
      | ⟨0, _⟩ => exact agg_lhs_0 _ _
      | ⟨1, _⟩ => exact (dot_S400x10000_S10000x256_S400x256_1_0_0_1_n_n.lhsIdx_val_of_single rfl _ _).trans hn)
  have er : dot_S400x10000_S10000x256_S400x256_1_0_0_1_n_n.rhsIdx (ix2 p k)
      ((contrEquiv1 dot_S400x10000_S10000x256_S400x256_1_0_0_1_n_n 10000 rfl rfl).symm n) = ix2 n k :=
    funext fun d => Fin.ext (by
      match d with
      | ⟨0, _⟩ => exact (dot_S400x10000_S10000x256_S400x256_1_0_0_1_n_n.rhsIdx_val_of_single rfl _ _).trans hn
      | ⟨1, _⟩ => exact agg_rhs_1 _ _)
  rw [el, er]

theorem proj_lhs_0 (i : S400x256.Idx) (c : dot_S400x256_S256x256_S400x256_1_0_0_1_n_n.contr.Idx) :
    (dot_S400x256_S256x256_S400x256_1_0_0_1_n_n.lhsIdx i c 0).val = (i 0).val := by
  unfold DotDims.lhsIdx
  rw [dif_neg (show ¬(0 : Fin S400x256.rank) ∈ dot_S400x256_S256x256_S400x256_1_0_0_1_n_n.lhsBatch by decide),
    dif_pos (show (0 : Fin S400x256.rank) ∈ dot_S400x256_S256x256_S400x256_1_0_0_1_n_n.lhsNonContracting by decide)]
  rfl
theorem proj_rhs_1 (i : S400x256.Idx) (c : dot_S400x256_S256x256_S400x256_1_0_0_1_n_n.contr.Idx) :
    (dot_S400x256_S256x256_S400x256_1_0_0_1_n_n.rhsIdx i c 1).val = (i 1).val := by
  unfold DotDims.rhsIdx
  rw [dif_neg (show ¬(1 : Fin S256x256.rank) ∈ dot_S400x256_S256x256_S400x256_1_0_0_1_n_n.rhsBatch by decide),
    dif_pos (show (1 : Fin S256x256.rank) ∈ dot_S400x256_S256x256_S400x256_1_0_0_1_n_n.rhsNonContracting by decide)]
  rfl

/-- The aggregate times the transposed weight, into a zero accumulator: at row p and column q the sum over the features. -/
theorem project_apply (g : FVec Ideal S400x256 .f32) (wt : FVec Ideal S256x256 .f32) (p : Fin 400) (q : Fin 256) :
    matmul dot_S400x256_S256x256_S400x256_1_0_0_1_n_n none g wt (constant S400x256 .f32 0x00000000#32) (ix2 p q)
      = ∑ k : Fin 256, g (ix2 p k) * wt (ix2 k q) := by
  simp only [matmul]
  rw [Ideal.matmul_constant_zero_apply,
    ← Equiv.sum_comp (contrEquiv1 dot_S400x256_S256x256_S400x256_1_0_0_1_n_n 256 rfl rfl).symm]
  refine Finset.sum_congr rfl fun k _ => ?_
  have hk := contrEquiv1_symm_val dot_S400x256_S256x256_S400x256_1_0_0_1_n_n 256 rfl rfl k
  have el : dot_S400x256_S256x256_S400x256_1_0_0_1_n_n.lhsIdx (ix2 p q)
      ((contrEquiv1 dot_S400x256_S256x256_S400x256_1_0_0_1_n_n 256 rfl rfl).symm k) = ix2 p k :=
    funext fun d => Fin.ext (by
      match d with
      | ⟨0, _⟩ => exact proj_lhs_0 _ _
      | ⟨1, _⟩ => exact (dot_S400x256_S256x256_S400x256_1_0_0_1_n_n.lhsIdx_val_of_single rfl _ _).trans hk)
  have er : dot_S400x256_S256x256_S400x256_1_0_0_1_n_n.rhsIdx (ix2 p q)
      ((contrEquiv1 dot_S400x256_S256x256_S400x256_1_0_0_1_n_n 256 rfl rfl).symm k) = ix2 k q :=
    funext fun d => Fin.ext (by
      match d with
      | ⟨0, _⟩ => exact (dot_S400x256_S256x256_S400x256_1_0_0_1_n_n.rhsIdx_val_of_single rfl _ _).trans hk
      | ⟨1, _⟩ => exact proj_rhs_1 _ _)
  rw [el, er]

/-! ## The row sums, as a column, spread over the columns -/

/-- The reduction along the columns with the neutral accumulator: at row p the sum of the row. -/
theorem rowsum_apply (a : FVec Ideal S400x10000 .f32) (h : S400x10000.Reduces [1] S400) (hφ : FKind.Formats .f32)
    (hacc : (0x00000000#32 : BitVec 32) = 0x00000000#32) (p : Fin 400) :
    multiReduction (F := Ideal) .add [1] S400 a 0x00000000#32 h hφ hacc (ix1 p) = ∑ n : Fin 10000, a (ix2 p n) := by
  refine (Ideal.multiReduction_add_single a 0x00000000#32 h hφ hacc (ix1 p)).trans ?_
  refine Finset.sum_congr rfl fun n _ => congrArg a (funext fun d => Fin.ext ?_)
  match d with
  | ⟨0, _⟩ => rfl
  | ⟨1, _⟩ => rfl

/-- A vector of 400 entries cast to a column reads, at row p, the vector at p. -/
theorem column_apply {α : Type} (v : S400.Idx → α) (h : S400.ShapeCasts S400x1) (p : Fin 400) (u : Fin 1) :
    shapeCast S400x1 v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

/-- A column spread over 256 columns reads, at row p and any column, the column at p. -/
theorem spread_column_apply {α : Type} (v : S400x1.Idx → α) (h : S400x1.Broadcasts S400x256) (p : Fin 400) (q : Fin 256) :
    broadcastTo S400x256 v h (ix2 p q) = v (ix2 p (0 : Fin 1)) := by
  refine broadcastTo_apply v h (ix2 p q) (ix2 p (0 : Fin 1)) fun ax => ?_
  match ax with
  | ⟨0, _⟩ =>
    show p.val = if (400 : Nat) = 1 then 0 else p.val
    rw [if_neg (by decide)]
  | ⟨1, _⟩ => rfl

/-! ## The stored value -/

/-- The body's stored value at row p and column q of the block. -/
theorem stored_apply (a : Vec Ideal S400x10000 .f32) (x : Vec Ideal S10000x256 .f32) (wt : Vec Ideal S256x256 .f32)
    (b : Vec Ideal S1x256 .f32) (p : Fin 400) (q : Fin 256) :
    k0_pay1 (F := Ideal) a x wt b (ix2 p q)
      = max ((∑ k : Fin 256, (∑ n : Fin 10000, a (ix2 p n) * x (ix2 n k)) * wt (ix2 k q))
          + (∑ n : Fin 10000, a (ix2 p n)) * b (ix2 (0 : Fin 1) q)) 0 := by
  unfold k0_pay1
  show max (_ + _ * _) (Ideal.ofBits .f32 0x00000000#32) = _
  rw [Ideal.ofBits_zero_f32]
  refine congrArg (max · 0) ?_
  refine congrArg₂ (· + ·) ?_ (congrArg₂ (· * ·) ?_ ?_)
  · refine (project_apply _ _ p q).trans ?_
    rw [shapeCast_self]
    exact Finset.sum_congr rfl fun k _ => congrArg (· * wt (ix2 k q)) (aggregate_apply a x p k)
  · refine (spread_column_apply _ _ p q).trans ?_
    refine (column_apply _ _ p 0).trans ?_
    exact rowsum_apply a _ _ _ p
  · refine (broadcastTo_1b_ab_apply _ _ p q).trans ?_
    rw [shapeCast_self]

end Cert.GraphConv.Body

end
-- ==== Proof.RowBlocks.lean ====
/-
  From the blocks the grid points write back to the whole result array.

  The grid has 25 points. Point t is handed rows 400·t … 400·t + 399 of the adjacency (all columns), the whole
  feature array, the whole transposed weight and the bias row, and writes back rows 400·t … 400·t + 399 of the result.
  So row 400·t + p, column q of the result is the body's stored value at (p, q) on those blocks, which is the layer read as
  "aggregate, then project" at row 400·t + p and column q of the ARGUMENT arrays: the transposed weight at (k, q) is the
  weight at (q, k), and the bias row at (0, q) is the bias at q. The 25 blocks of 400 rows cover the 10000 rows.
-/
import proofs.«157679_g26826365731398_cont_9to1_2211_16_alg».proof.Proof.Gen.KernelIdeal.Value
import proofs.«157679_g26826365731398_cont_9to1_2211_16_alg».proof.Proof.Reassoc
import proofs.«157679_g26826365731398_cont_9to1_2211_16_alg».proof.Proof.BodyValue
import Idealize.ShloMosaic.Lib.Pipeline.Value
import Idealize.ShloMosaic.Lib.StableHlo.Run
import Idealize.ShloMosaic.Lib.ValueLayout

noncomputable section

open scoped BigOperators

namespace Cert.GraphConv.Rows

open Cert.KernelIdeal Cert.KernelIdeal.Gen Idealize.ShloMosaic Idealize.ShloMosaic.TcCoe Idealize.SL.Sem
open Idealize.ShloMosaic.ValueIdx Cert.GraphConv
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The result array: the layer, aggregated first, of the four argument arrays as launched. -/
def result (c : Dev nD) : S10000x256.Idx → EReal := fun i =>
  aggregateThenProject (m ((c : Thread nD τ).loc main_arg0)) (m ((c : Thread nD τ).loc main_arg1))
    (m ((c : Thread nD τ).loc main_arg2)) (m ((c : Thread nD τ).loc main_arg3)) (i 0) (i 1)

/-- The block indices over the grid: the features, the weight and the bias stay at block (0, 0); the adjacency and the
    result move down one block of rows per point. -/
theorem block_indices : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-! ## What the region finds in the two arrays the host wrote -/

/-- The weight window's array is the weight transposed. -/
theorem weight_array (c : Dev nD) : (V m c main_v0 : S256x256.Idx → EReal)
    = transpose S256x256 [1, 0] (m ((c : Thread nD τ).loc main_arg2)) transposes_S256x256_S256x256_1_0 := by
  dsimp only [Gen.V, Gen.hostOps0]
  after_results <;> rfl

/-- The bias window's array is the bias as one row. -/
theorem bias_array (c : Dev nD) : (V m c main_v1 : S1x256.Idx → EReal)
    = shapeCast S1x256 (m ((c : Thread nD τ).loc main_arg3)) shapeCasts_S256_S1x256 := by
  dsimp only [Gen.V, Gen.hostOps0]
  after_results <;> rfl

/-! ## Each input block, read at an index -/

/-- The features' block at any point is the whole feature array. -/
theorem features_block (c : Dev nD) (t : Fin cfg0.N) (n : Fin 10000) (k : Fin 256) :
    (iblk m c 0 t : Vec Ideal S10000x256 .f32) (ix2 n k) = (m ((c : Thread nD τ).loc main_arg0) : S10000x256.Idx → EReal) (ix2 n k) := by
  obtain ⟨e00, e01, -⟩ := block_indices t
  unfold iblk
  rw [View.read_apply]
  show V m c main_arg0 _ = _
  rw [V_main_arg0]
  refine congrArg _ (funext fun a => Fin.ext ?_)
  match a with
  | ⟨0, _⟩ => show win0_0.index t (0 : Fin 2) * 10000 + 1 * n.val = n.val; omega
  | ⟨1, _⟩ => show win0_0.index t (1 : Fin 2) * 256 + 1 * k.val = k.val; omega

/-- The adjacency's block at point t is its rows from 400·t on. -/
theorem adjacency_block (c : Dev nD) (t : Fin cfg0.N) (p : Fin 400) (n : Fin 10000) (r : Fin 10000) (hr : r.val = 400 * t.val + p.val) :
    (iblk m c 3 t : Vec Ideal S400x10000 .f32) (ix2 p n) = (m ((c : Thread nD τ).loc main_arg1) : S10000x10000.Idx → EReal) (ix2 r n) := by
  obtain ⟨-, -, -, -, -, -, e30, e31, -⟩ := block_indices t
  unfold iblk
  rw [View.read_apply]
  show V m c main_arg1 _ = _
  rw [V_main_arg1]
  refine congrArg _ (funext fun a => Fin.ext ?_)
  match a with
  | ⟨0, _⟩ => show win0_3.index t (0 : Fin 2) * 400 + 1 * p.val = r.val; omega
  | ⟨1, _⟩ => show win0_3.index t (1 : Fin 2) * 10000 + 1 * n.val = n.val; omega

/-- The weight window's block at (k, q) is the weight at (q, k). -/
theorem weight_block (c : Dev nD) (t : Fin cfg0.N) (k q : Fin 256) :
    (iblk m c 1 t : Vec Ideal S256x256 .f32) (ix2 k q) = (m ((c : Thread nD τ).loc main_arg2) : S256x256.Idx → EReal) (ix2 q k) := by
  obtain ⟨-, -, e10, e11, -⟩ := block_indices t
  unfold iblk
  rw [View.read_apply]
  show (V m c main_v0 : S256x256.Idx → EReal) _ = _
  rw [weight_array]
  refine (congrArg _ (funext fun a => Fin.ext ?_)).trans (transpose_ix2_apply _ _ k q)
  match a with
  | ⟨0, _⟩ => show win0_1.index t (0 : Fin 2) * 256 + 1 * k.val = k.val; omega
  | ⟨1, _⟩ => show win0_1.index t (1 : Fin 2) * 256 + 1 * q.val = q.val; omega

/-- The bias window's block at (0, q) is the bias at q. -/
theorem bias_block (c : Dev nD) (t : Fin cfg0.N) (q : Fin 256) :
    (iblk m c 2 t : Vec Ideal S1x256 .f32) (ix2 (0 : Fin 1) q) = (m ((c : Thread nD τ).loc main_arg3) : S256.Idx → EReal) (ix1 q) := by
  obtain ⟨-, -, -, -, e20, e21, -⟩ := block_indices t
  unfold iblk
  rw [View.read_apply]
  show (V m c main_v1 : S1x256.Idx → EReal) _ = _
  rw [bias_array]
  refine (congrArg _ (funext fun a => Fin.ext ?_)).trans (shapeCast_a_1a_apply _ _ (0 : Fin 1) q)
  match a with
  | ⟨0, _⟩ => show win0_2.index t (0 : Fin 2) * 1 + 1 * 0 = 0; omega
  | ⟨1, _⟩ => show win0_2.index t (1 : Fin 2) * 256 + 1 * q.val = q.val; omega

/-! ## What each point writes back, and the whole array -/

/-- Point t writes back block t of the result. -/
theorem flushed_eq (c : Dev nD) (t : Fin cfg0.N) :
    (dats m 0 c).flushed 4 t = ((cfg0.win 4).blk t).view.read (Elt Ideal) (result m c) := by
  have hN : cfg0.N = 25 := N_0
  have ht : t.val < cfg0.N := t.isLt
  rw [Cert.KernelIdeal.Value.flushed4]
  unfold out0_4
  rw [View.canon_unit_zero hz]
  simp only [View.ld_unit_zero (S := S400x10000) hz, View.ld_unit_zero (S := S10000x256) hz,
    View.ld_unit_zero (S := S256x256) hz, View.ld_unit_zero (S := S1x256) hz]
  obtain ⟨-, -, -, -, -, -, -, -, e40, e41⟩ := block_indices t
  funext j
  show k0_pay1 (F := Ideal) (iblk m c 3 t) (iblk m c 0 t) (iblk m c 1 t) (iblk m c 2 t) j
    = result m c (((cfg0.win 4).blk t).view.emb j)
  obtain ⟨p, q, rfl⟩ : ∃ (p : Fin 400) (q : Fin 256), j = ix2 p q := ⟨j 0, j 1, eq_ix2 j⟩
  have hrow : 400 * t.val + p.val < 10000 := by have := p.isLt; omega
  have hemb : ((cfg0.win 4).blk t).view.emb (ix2 p q) = ix2 (⟨400 * t.val + p.val, hrow⟩ : Fin 10000) q :=
    funext fun a => Fin.ext (by
      match a with
      | ⟨0, _⟩ => show win0_4.index t (0 : Fin 2) * 400 + 1 * p.val = 400 * t.val + p.val; omega
      | ⟨1, _⟩ => show win0_4.index t (1 : Fin 2) * 256 + 1 * q.val = q.val; omega)
  rw [hemb]
  refine (Body.stored_apply _ _ _ _ p q).trans ?_
  show _ = aggregateThenProject _ _ _ _ (⟨400 * t.val + p.val, hrow⟩ : Fin 10000) q
  unfold aggregateThenProject
  refine congrArg (max · 0) (congrArg₂ (· + ·) (Finset.sum_congr rfl fun k _ => congrArg₂ (· * ·)
      (Finset.sum_congr rfl fun n _ => congrArg₂ (· * ·) (adjacency_block m c t p n _ rfl) (features_block m c t n k))
      (weight_block m c t k q))
    (congrArg₂ (· * ·) (Finset.sum_congr rfl fun n _ => adjacency_block m c t p n _ rfl) (bias_block m c t q)))

/-- An index of the result is in point t's block iff its row is among the block's 400 rows. -/
theorem mem_blk (t : Fin cfg0.N) (i : S10000x256.Idx) :
    i ∈ ((cfg0.win 4).blk t).view.set ↔ ∀ a : Fin 2, win0_4.index t a * S400x256.size a ≤ (i a).val
      ∧ (i a).val < win0_4.index t a * S400x256.size a + S400x256.size a := by
  show i ∈ ((View.whole main_v2).slice (win0_4.rect t)).set ↔ _
  rw [View.set_slice_whole, Rect.mem_set_unit]
  exact Iff.rfl

/-- Every index of the result is in the block of the point its row belongs to. -/
theorem cover (i : S10000x256.Idx) : ∃ t : Fin cfg0.N, (cfg0.win 4).flush t = true ∧ i ∈ ((cfg0.win 4).blk t).view.set := by
  have hN : cfg0.N = 25 := N_0
  have hi0 : (i 0).val < 10000 := (i 0).isLt
  have hi1 : (i 1).val < 256 := (i 1).isLt
  refine ⟨⟨(i 0).val / 400, by rw [hN]; omega⟩, flush0_4 _, ?_⟩
  rw [mem_blk]
  obtain ⟨-, -, -, -, -, -, -, -, e40, e41⟩ := block_indices ⟨(i 0).val / 400, by rw [hN]; omega⟩
  intro a
  match a with
  | ⟨0, _⟩ =>
    show win0_4.index _ (0 : Fin 2) * 400 ≤ (i 0).val ∧ (i 0).val < win0_4.index _ (0 : Fin 2) * 400 + 400
    rw [e40]; show (i 0).val / 400 * 400 ≤ (i 0).val ∧ (i 0).val < (i 0).val / 400 * 400 + 400; omega
  | ⟨1, _⟩ =>
    show win0_4.index _ (1 : Fin 2) * 256 ≤ (i 1).val ∧ (i 1).val < win0_4.index _ (1 : Fin 2) * 256 + 256
    rw [e41]; omega

/-- After the run the result array is the layer of the argument arrays. -/
theorem final (c : Dev nD) : (dats m 0 c).arrAt 4 cfg0.N = result m c :=
  (dats m 0 c).arrAt_eq_of_cover 4 (result m c) (fun t _ => flushed_eq m c t) cover

/-- The kernel's run: the result array at the layer of the arguments, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.GraphConv.Rows

end
-- ==== Proof.lean ====
/-
  A graph-convolution layer, out = max (A · (X · Wᵀ + β)) 0, computed by a kernel that reassociates the products.

  The reference projects every node's features (X · Wᵀ, plus the bias β on every row) and then aggregates with the dense
  adjacency A. The kernel walks the adjacency in 25 blocks of 400 rows; for each block it aggregates the features first
  (A_blk · X), projects the aggregate once ((A_blk · X) · Wᵀ), and adds the bias scaled by the block's row sums
  (rowsum(A_blk) · β), before the same clamp at zero. On extended reals that are real numbers the two are one function
  of the arguments, row by row and column by column (Reassoc.lean): A p n distributes over the inner sum, the two finite
  sums exchange, and the bias collects the row sum. The law needs the entries to be real numbers, which is what the
  precondition says of every input (RealInputs.lean).

  The kernel's side: the body's stored value at a row and column of its blocks (BodyValue.lean), the blocks as rows
  of the argument arrays and the 25 write-backs covering the result (RowBlocks.lean). The reference's side: its stages
  read at a row and column (RefLayer.lean). The three frame claims are the generated frame runs; the idealization
  rewrote nothing, so there is nothing to preserve.
-/
import proofs.«157679_g26826365731398_cont_9to1_2211_16_alg».proof.Defs
import proofs.«157679_g26826365731398_cont_9to1_2211_16_alg».proof.Proof.Gen.Kernel
import proofs.«157679_g26826365731398_cont_9to1_2211_16_alg».proof.Proof.Gen.Kernel.Skeleton
import proofs.«157679_g26826365731398_cont_9to1_2211_16_alg».proof.Proof.Gen.Kernel.Launch
import proofs.«157679_g26826365731398_cont_9to1_2211_16_alg».proof.Proof.Gen.Kernel.Points
import proofs.«157679_g26826365731398_cont_9to1_2211_16_alg».proof.Proof.Gen.Kernel.Frame
import proofs.«157679_g26826365731398_cont_9to1_2211_16_alg».proof.Proof.Gen.KernelIdeal
import proofs.«157679_g26826365731398_cont_9to1_2211_16_alg».proof.Proof.Gen.KernelIdeal.Skeleton
import proofs.«157679_g26826365731398_cont_9to1_2211_16_alg».proof.Proof.Gen.KernelIdeal.Launch
import proofs.«157679_g26826365731398_cont_9to1_2211_16_alg».proof.Proof.Gen.KernelIdeal.Points
import proofs.«157679_g26826365731398_cont_9to1_2211_16_alg».proof.Proof.Gen.KernelIdeal.Frame
import proofs.«157679_g26826365731398_cont_9to1_2211_16_alg».proof.Proof.Gen.ReferenceIdeal
import proofs.«157679_g26826365731398_cont_9to1_2211_16_alg».proof.Proof.Gen.Pre_finite_inputs
import proofs.«157679_g26826365731398_cont_9to1_2211_16_alg».proof.Proof.Gen.KernelIdeal.Value
import proofs.«157679_g26826365731398_cont_9to1_2211_16_alg».proof.Proof.Gen.ReferenceIdeal.Run
import proofs.«157679_g26826365731398_cont_9to1_2211_16_alg».proof.Proof.Gen.ReferenceIdeal.Read
import proofs.«157679_g26826365731398_cont_9to1_2211_16_alg».proof.Proof.Reassoc
import proofs.«157679_g26826365731398_cont_9to1_2211_16_alg».proof.Proof.RefLayer
import proofs.«157679_g26826365731398_cont_9to1_2211_16_alg».proof.Proof.RealInputs
import proofs.«157679_g26826365731398_cont_9to1_2211_16_alg».proof.Proof.RowBlocks
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the layer of the arguments: the kernel with "aggregate, then project" (its blocks put
    together), the reference with "project, then aggregate" (its stages read at an index); on the real-valued arguments
    the precondition grants, these are one array. -/
theorem algebraic : Cert.algebraic_KernelIdeal_ReferenceIdeal := by
  intro m ρ m' ρ' hpre hagree
  refine ⟨fun c => Cert.GraphConv.Rows.result m c, Cert.GraphConv.Rows.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, (hagree c).1, (hagree c).2.1, (hagree c).2.2.1, (hagree c).2.2.2]
  obtain ⟨hX, hA, hW, hβ⟩ := Cert.GraphConv.Pre.allReal_of_pre _ _ _ _ (hpre c)
  funext i
  obtain ⟨p, q, rfl⟩ : ∃ (p : Fin 10000) (q : Fin 256), i = ix2 p q := ⟨i 0, i 1, eq_ix2 i⟩
  exact (Cert.GraphConv.Ref.result_apply _ _ _ _ p q).trans
    (Cert.GraphConv.aggregateThenProject_eq _ _ _ _ hX hA hW hβ p q).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
